-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S50000x47 : Shape := ⟨2, ![50000, 47]⟩
abbrev S5000x47 : Shape := ⟨2, ![5000, 47]⟩
abbrev S1x47 : Shape := ⟨2, ![1, 47]⟩

abbrev nBuf : Space → Nat
  | .hbm => 73
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x47, .f32⟩
  | .local _ .vmem, ⟨23, _⟩ => ⟨S128x47, .f32⟩
  | .local _ .vmem, ⟨24, _⟩ => ⟨S47, .f32⟩
  | .local _ .vmem, ⟨25, _⟩ => ⟨S5000x47, .f32⟩
  | .local _ .vmem, ⟨26, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S47_S47_0 : ∀ a, (![0] : Fin 1 → Nat) a + S47.size a ≤ S47.size a
  h_S47 : 0 < S47.numel
  shapeCasts_S47_S1x47 : S47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47.size a ≤ S47.size a
  hwx2_4 : ∀ i : grid2.Coords, EltTy.bits .f32 = 32 ∨ (Rect.block (s := S47) S47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S50000x47.size a
  hwx2_5 : ∀ i : grid2.Coords, EltTy.bits .f32 = 32 ∨ (Rect.block (s := S50000x47) S5000x47.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x47 : Shape := ⟨2, ![50000, 47]⟩
abbrev S1x47 : Shape := ⟨2, ![1, 47]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x47, .f32⟩
  | .hbm, ⟨89, _⟩ => ⟨S50000x47, .f32⟩
  | .hbm, ⟨90, _⟩ => ⟨S50000x47, .f32⟩
  | .hbm, ⟨91, _⟩ => ⟨S1x47, .f32⟩
  | .hbm, ⟨92, _⟩ => ⟨S50000x47, .f32⟩
  | .hbm, ⟨93, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KernelRunAll.lean ====
/-
  THE KERNEL PROGRAM'S RUN, WITH EVERY BUFFER READ.

  The program is six segments: three stretches of host operations, each followed by one pipelined kernel. Every weakly
  fair execution terminates, and in the final state every buffer that lives for the whole program holds what the fold
  through the six segments leaves in it: a host stretch applies its operations to the contents before it, a kernel
  leaves its output array at what its ten write-backs leave and everything else as it was. The frame claim keeps of this
  only that the arguments end as launched; here the same run is posted with all the buffers, so that the result buffer
  can be read too.
-/
import proofs.«168584_j4123168604186_1_alg».proof.Proof.Gen.KernelIdeal.Frame

set_option maxRecDepth 16384

noncomputable section

namespace Cert.Sage.KernelRunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and every
    buffer that lives for the whole program ends at the contents the fold through the six segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- A buffer that lives for the whole program, read in a final state of the run. -/
theorem read_final {r : PUnit × MemSt nD τ sig (Elt F)}
    (h : ∀ c : Dev nD, ∀ b ∈ Pipeline.ucRefs τ sig, r.2.mem (((c : Thread nD τ)).1, b) = W6 m ρ c b)
    (c : Dev nD) (b : Ref sig .tc) (hb : ¬ (Proc.devRef .tc b : DevRef τ sig).isScoped) :
    r.2.mem ((c.tc : Thread nD τ).loc b) = W6 m ρ c (Proc.devRef .tc b) :=
  h c _ (mem_uc b hb)

end Cert.Sage.KernelRunAll

end
-- ==== Proof.SageSpec.lean ====
/-
  THE THREE-LAYER GRAPH-SAGE NETWORK AS ONE FUNCTION OF ITS ARGUMENTS.

  Nodes 0 … 49999 carry 128 features; 800000 edges go from src(e) to dst(e). For in-range indices, with deg(i) the
  number of edges whose destination is node i, the neighbours' mean of a feature matrix h is

      agg h (i, ·) = ( Σ_{e : dst(e) = i} h(src(e), ·) ) · 1 / max(deg(i), 1).

  It is spelt by host operations that both programs share word for word: a scatter-add of ones for the degree, a
  negative source index wrapped by adding 50000, a gather of rows, a scatter-add of the gathered rows, a multiplication by
  the broadcast column of reciprocals. What the gather and the scatter-add do with an index outside the range is part of
  their definition and plays no role here, because the chain is never opened. A hidden layer is

      hidden h = max( h·Ws + (agg h)·Wn + b , 0 ),

  and the network is  out = h2·W9 + (agg h2)·W10 + b11  with  h1 = hidden x,  h2 = hidden h1.

  The shared aggregation is kept as one named function of (h, src, dst) and is never opened: the two programs apply the
  same function to features that are proved equal. Only the dense step (two products, a sum and the bias) is computed
  differently by the two programs, and that is compared entry by entry elsewhere.
-/
import proofs.«168584_j4123168604186_1_alg».proof.ReferenceIdeal

noncomputable section

namespace Cert.Sage

open Idealize.ShloMosaic Cert.ReferenceIdeal

variable {F : FTy → Type} [FloatOps F] [Cert.ReferenceIdeal.Facts]

open Cert.ReferenceIdeal.Facts₀ Cert.ReferenceIdeal.Facts

/-- The column of reciprocal degrees, 1 / max(deg, 1): deg by scatter-adding a one per edge at its destination. -/
def invDeg (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32))))

/-- The source indices as gather start indices: a negative index wrapped by adding the number of nodes. -/
def wrapIdx (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbours' mean of h, given the column of reciprocal degrees: rows of h gathered along the edges, summed into
    their destinations, scaled. -/
def aggWith (h : (⟨S50000x128, .f32⟩ : BufTy).Contents (Elt F)) (src dst : (⟨S800000, .i32⟩ : BufTy).Contents (Elt F))
    (inv : (⟨S50000x1, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (wrapIdx src)))
    (broadcastInDim S50000x128 ![0, 1] bcast_S50000x1_S50000x128_0_1 inv)

/-- The neighbours' mean of h. -/
def agg (h : (⟨S50000x128, .f32⟩ : BufTy).Contents (Elt F)) (src dst : (⟨S800000, .i32⟩ : BufTy).Contents (Elt F)) :
    (⟨S50000x128, .f32⟩ : BufTy).Contents (Elt F) :=
  aggWith h src dst (invDeg dst)

/-- h·Ws + hn·Wn + b for 128 output features, in the host program's spelling. -/
def mix128 (h hn : (⟨S50000x128, .f32⟩ : BufTy).Contents (Elt F)) (Ws Wn : (⟨S128x128, .f32⟩ : BufTy).Contents (Elt F))
    (b : (⟨S128, .f32⟩ : BufTy).Contents (Elt F)) : (⟨S50000x128, .f32⟩ : BufTy).Contents (Elt F) :=
  addf
    (addf (Host.dotGeneral dot_S50000x128_S128x128_S50000x128_1_0_0_1_n_n none h Ws)
      (Host.dotGeneral dot_S50000x128_S128x128_S50000x128_1_0_0_1_n_n none hn Wn))
    (broadcastInDim S50000x128 ![0, 1] bcast_S1x128_S50000x128_0_1 (broadcastInDim S1x128 ![1] bcast_S128_S1x128_1 b))

/-- The maximum with zero, entry by entry. -/
def relu (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

/-- h·Ws + hn·Wn + b for the 47 output classes. -/
def mix47 (h hn : (⟨S50000x128, .f32⟩ : BufTy).Contents (Elt F)) (Ws Wn : (⟨S128x47, .f32⟩ : BufTy).Contents (Elt F))
    (b : (⟨S47, .f32⟩ : BufTy).Contents (Elt F)) : (⟨S50000x47, .f32⟩ : BufTy).Contents (Elt F) :=
  addf
    (addf (Host.dotGeneral dot_S50000x128_S128x47_S50000x47_1_0_0_1_n_n none h Ws)
      (Host.dotGeneral dot_S50000x128_S128x47_S50000x47_1_0_0_1_n_n none hn Wn))
    (broadcastInDim S50000x47 ![0, 1] bcast_S1x47_S50000x47_0_1 (broadcastInDim S1x47 ![1] bcast_S47_S1x47_1 b))

/-- A hidden layer: the dense step on h and its neighbours' mean, then the maximum with zero. -/
def hidden (h : (⟨S50000x128, .f32⟩ : BufTy).Contents (Elt F)) (src dst : (⟨S800000, .i32⟩ : BufTy).Contents (Elt F))
    (Ws Wn : (⟨S128x128, .f32⟩ : BufTy).Contents (Elt F)) (b : (⟨S128, .f32⟩ : BufTy).Contents (Elt F)) :
    (⟨S50000x128, .f32⟩ : BufTy).Contents (Elt F) :=
  relu (mix128 h (agg h src dst) Ws Wn b)

/-- THE NETWORK: two hidden layers and the linear output layer. -/
def net (x : (⟨S50000x128, .f32⟩ : BufTy).Contents (Elt F)) (src dst : (⟨S800000, .i32⟩ : BufTy).Contents (Elt F))
    (W3 W4 : (⟨S128x128, .f32⟩ : BufTy).Contents (Elt F)) (b5 : (⟨S128, .f32⟩ : BufTy).Contents (Elt F))
    (W6 W7 : (⟨S128x128, .f32⟩ : BufTy).Contents (Elt F)) (b8 : (⟨S128, .f32⟩ : BufTy).Contents (Elt F))
    (W9 W10 : (⟨S128x47, .f32⟩ : BufTy).Contents (Elt F)) (b11 : (⟨S47, .f32⟩ : BufTy).Contents (Elt F)) :
    (⟨S50000x47, .f32⟩ : BufTy).Contents (Elt F) :=
  mix47 (hidden (hidden x src dst W3 W4 b5) src dst W6 W7 b8)
    (agg (hidden (hidden x src dst W3 W4 b5) src dst W6 W7 b8) src dst) W9 W10 b11

end Cert.Sage

end
-- ==== Proof.FoldHost.lean ====
/-
  THE KERNEL PROGRAM'S HOST STRETCHES, READ.

  Write A0 … A11 for the argument arrays at launch. The program alternates three stretches of host operations with
  three kernels. A host stretch is read operation by operation: a buffer it does not write keeps its contents, and the
  one buffer each stretch exists to compute, the neighbours' mean, is the named aggregation of the features it reads
  (the arguments' features in the first stretch, the previous kernel's output array in the other two), the source and
  destination indices, and the reciprocal-degree column the first stretch computed once. A kernel leaves every buffer
  that is not one of its arrays as it was. None of this depends on how a float is read, so it is stated for any.
  The aggregation is recognised as the named function and not opened; the dimension records of the gather and the two
  scatters, which each program prints for itself, are the same records.
-/
import proofs.«168584_j4123168604186_1_alg».proof.Proof.Gen.KernelIdeal.Frame
import proofs.«168584_j4123168604186_1_alg».proof.Proof.Gen.ReferenceIdeal
import proofs.«168584_j4123168604186_1_alg».proof.Proof.SageSpec
import Idealize.ShloMosaic.Lib.StableHlo.Run

set_option maxRecDepth 16384

noncomputable section

namespace Cert.Sage.FoldHost

open Idealize.ShloMosaic Idealize.ShloMosaic.TcCoe Idealize.SL.Sem Idealize.ShloMosaic.StableHlo
open Cert.KernelIdeal Cert.KernelIdeal.Gen

theorem scatterRows_eq : Cert.KernelIdeal.scatter_S50000x128_S800000x1_S800000x128_1_0_0_1
    = Cert.ReferenceIdeal.scatter_S50000x128_S800000x1_S800000x128_1_0_0_1 := rfl
theorem gatherRows_eq : Cert.KernelIdeal.gather_S50000x128_S800000x1_S800000x128_1_0_n_n_0_1_1128
    = Cert.ReferenceIdeal.gather_S50000x128_S800000x1_S800000x128_1_0_n_n_0_1_1128 := rfl
theorem scatterOnes_eq : Cert.KernelIdeal.scatter_S50000_S800000x1_S800000_n_0_0_1
    = Cert.ReferenceIdeal.scatter_S50000_S800000x1_S800000_n_0_0_1 := rfl

variable {F : FTy → Type} [FloatOps F]
variable (m : (ℓ : Loc nD τ sig) → Buf (Elt F) ℓ) (ρ : Dev nD → PrngReg)

/-! ## After the first host stretch -/
theorem W1_arg0 (c : Dev nD) : W1 m ρ c (Proc.devRef .tc main_arg0) = (m ((c : Thread nD τ).loc main_arg0)) := by
  refine Eq.trans ?_ (rfl)
  show StableHlo.after hostOps0 (W0 m ρ c) (Proc.devRef .tc main_arg0) = _
  dsimp only [hostOps0]
  after_results_simp
theorem W1_arg1 (c : Dev nD) : W1 m ρ c (Proc.devRef .tc main_arg1) = (m ((c : Thread nD τ).loc main_arg1)) := by
  refine Eq.trans ?_ (rfl)
  show StableHlo.after hostOps0 (W0 m ρ c) (Proc.devRef .tc main_arg1) = _
  dsimp only [hostOps0]
  after_results_simp
theorem W1_arg2 (c : Dev nD) : W1 m ρ c (Proc.devRef .tc main_arg2) = (m ((c : Thread nD τ).loc main_arg2)) := by
  refine Eq.trans ?_ (rfl)
  show StableHlo.after hostOps0 (W0 m ρ c) (Proc.devRef .tc main_arg2) = _
  dsimp only [hostOps0]
  after_results_simp
theorem W1_arg3 (c : Dev nD) : W1 m ρ c (Proc.devRef .tc main_arg3) = (m ((c : Thread nD τ).loc main_arg3)) := by
  refine Eq.trans ?_ (rfl)
  show StableHlo.after hostOps0 (W0 m ρ c) (Proc.devRef .tc main_arg3) = _
  dsimp only [hostOps0]
  after_results_simp
theorem W1_arg4 (c : Dev nD) : W1 m ρ c (Proc.devRef .tc main_arg4) = (m ((c : Thread nD τ).loc main_arg4)) := by
  refine Eq.trans ?_ (rfl)
  show StableHlo.after hostOps0 (W0 m ρ c) (Proc.devRef .tc main_arg4) = _
  dsimp only [hostOps0]
  after_results_simp
theorem W1_arg5 (c : Dev nD) : W1 m ρ c (Proc.devRef .tc main_arg5) = (m ((c : Thread nD τ).loc main_arg5)) := by
  refine Eq.trans ?_ (rfl)
  show StableHlo.after hostOps0 (W0 m ρ c) (Proc.devRef .tc main_arg5) = _
  dsimp only [hostOps0]
  after_results_simp
theorem W1_arg6 (c : Dev nD) : W1 m ρ c (Proc.devRef .tc main_arg6) = (m ((c : Thread nD τ).loc main_arg6)) := by
  refine Eq.trans ?_ (rfl)
  show StableHlo.after hostOps0 (W0 m ρ c) (Proc.devRef .tc main_arg6) = _
  dsimp only [hostOps0]
  after_results_simp
theorem W1_arg7 (c : Dev nD) : W1 m ρ c (Proc.devRef .tc main_arg7) = (m ((c : Thread nD τ).loc main_arg7)) := by
  refine Eq.trans ?_ (rfl)
  show StableHlo.after hostOps0 (W0 m ρ c) (Proc.devRef .tc main_arg7) = _
  dsimp only [hostOps0]
  after_results_simp
theorem W1_arg8 (c : Dev nD) : W1 m ρ c (Proc.devRef .tc main_arg8) = (m ((c : Thread nD τ).loc main_arg8)) := by
  refine Eq.trans ?_ (rfl)
  show StableHlo.after hostOps0 (W0 m ρ c) (Proc.devRef .tc main_arg8) = _
  dsimp only [hostOps0]
  after_results_simp
theorem W1_arg9 (c : Dev nD) : W1 m ρ c (Proc.devRef .tc main_arg9) = (m ((c : Thread nD τ).loc main_arg9)) := by
  refine Eq.trans ?_ (rfl)
  show StableHlo.after hostOps0 (W0 m ρ c) (Proc.devRef .tc main_arg9) = _
  dsimp only [hostOps0]
  after_results_simp
theorem W1_arg10 (c : Dev nD) : W1 m ρ c (Proc.devRef .tc main_arg10) = (m ((c : Thread nD τ).loc main_arg10)) := by
  refine Eq.trans ?_ (rfl)
  show StableHlo.after hostOps0 (W0 m ρ c) (Proc.devRef .tc main_arg10) = _
  dsimp only [hostOps0]
  after_results_simp
theorem W1_arg11 (c : Dev nD) : W1 m ρ c (Proc.devRef .tc main_arg11) = (m ((c : Thread nD τ).loc main_arg11)) := by
  refine Eq.trans ?_ (rfl)
  show StableHlo.after hostOps0 (W0 m ρ c) (Proc.devRef .tc main_arg11) = _
  dsimp only [hostOps0]
  after_results_simp

/-- The reciprocal-degree column, computed once from the destinations. -/
theorem W1_v8 (c : Dev nD) : W1 m ρ c (Proc.devRef .tc main_v8) = invDeg (m ((c : Thread nD τ).loc main_arg2)) := by
  generalize hX : invDeg (m ((c : Thread nD τ).loc main_arg2)) = X
  show StableHlo.after hostOps0 (W0 m ρ c) (Proc.devRef .tc main_v8) = X
  dsimp only [hostOps0]
  after_results_simp
  rw [scatterOnes_eq]
  subst hX
  unfold invDeg
  rfl

/-- The neighbours' mean of the input features. -/
theorem W1_v20 (c : Dev nD) : W1 m ρ c (Proc.devRef .tc main_v20) = agg (m ((c : Thread nD τ).loc main_arg0)) (m ((c : Thread nD τ).loc main_arg1)) (m ((c : Thread nD τ).loc main_arg2)) := by
  generalize hX : agg (m ((c : Thread nD τ).loc main_arg0)) (m ((c : Thread nD τ).loc main_arg1)) (m ((c : Thread nD τ).loc main_arg2)) = X
  show StableHlo.after hostOps0 (W0 m ρ c) (Proc.devRef .tc main_v20) = X
  dsimp only [hostOps0]
  after_results_simp
  rw [scatterRows_eq, gatherRows_eq, scatterOnes_eq]
  subst hX
  unfold agg aggWith invDeg wrapIdx
  rfl

/-! ## After the first kernel: what is not one of its arrays is as it was -/
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_v8 (c : Dev nD) : W2 m ρ c (Proc.devRef .tc main_v8) = (invDeg (m ((c : Thread nD τ).loc main_arg2))) :=
  (W2_of_ne m ρ c main_v8 (by decide)).trans (W1_v8 m ρ c)

/-! ## After the second host stretch -/
theorem W3_arg1 (c : Dev nD) : W3 m ρ c (Proc.devRef .tc main_arg1) = (m ((c : Thread nD τ).loc main_arg1)) := by
  refine Eq.trans ?_ (W2_arg1 m ρ c)
  show StableHlo.after hostOps1 (W2 m ρ c) (Proc.devRef .tc main_arg1) = _
  dsimp only [hostOps1]
  after_results_simp
theorem W3_arg2 (c : Dev nD) : W3 m ρ c (Proc.devRef .tc main_arg2) = (m ((c : Thread nD τ).loc main_arg2)) := by
  refine Eq.trans ?_ (W2_arg2 m ρ c)
  show StableHlo.after hostOps1 (W2 m ρ c) (Proc.devRef .tc main_arg2) = _
  dsimp only [hostOps1]
  after_results_simp
theorem W3_arg6 (c : Dev nD) : W3 m ρ c (Proc.devRef .tc main_arg6) = (m ((c : Thread nD τ).loc main_arg6)) := by
  refine Eq.trans ?_ (W2_arg6 m ρ c)
  show StableHlo.after hostOps1 (W2 m ρ c) (Proc.devRef .tc main_arg6) = _
  dsimp only [hostOps1]
  after_results_simp
theorem W3_arg7 (c : Dev nD) : W3 m ρ c (Proc.devRef .tc main_arg7) = (m ((c : Thread nD τ).loc main_arg7)) := by
  refine Eq.trans ?_ (W2_arg7 m ρ c)
  show StableHlo.after hostOps1 (W2 m ρ c) (Proc.devRef .tc main_arg7) = _
  dsimp only [hostOps1]
  after_results_simp
theorem W3_arg8 (c : Dev nD) : W3 m ρ c (Proc.devRef .tc main_arg8) = (m ((c : Thread nD τ).loc main_arg8)) := by
  refine Eq.trans ?_ (W2_arg8 m ρ c)
  show StableHlo.after hostOps1 (W2 m ρ c) (Proc.devRef .tc main_arg8) = _
  dsimp only [hostOps1]
  after_results_simp
theorem W3_arg9 (c : Dev nD) : W3 m ρ c (Proc.devRef .tc main_arg9) = (m ((c : Thread nD τ).loc main_arg9)) := by
  refine Eq.trans ?_ (W2_arg9 m ρ c)
  show StableHlo.after hostOps1 (W2 m ρ c) (Proc.devRef .tc main_arg9) = _
  dsimp only [hostOps1]
  after_results_simp
theorem W3_arg10 (c : Dev nD) : W3 m ρ c (Proc.devRef .tc main_arg10) = (m ((c : Thread nD τ).loc main_arg10)) := by
  refine Eq.trans ?_ (W2_arg10 m ρ c)
  show StableHlo.after hostOps1 (W2 m ρ c) (Proc.devRef .tc main_arg10) = _
  dsimp only [hostOps1]
  after_results_simp
theorem W3_arg11 (c : Dev nD) : W3 m ρ c (Proc.devRef .tc main_arg11) = (m ((c : Thread nD τ).loc main_arg11)) := by
  refine Eq.trans ?_ (W2_arg11 m ρ c)
  show StableHlo.after hostOps1 (W2 m ρ c) (Proc.devRef .tc main_arg11) = _
  dsimp only [hostOps1]
  after_results_simp
theorem W3_v8 (c : Dev nD) : W3 m ρ c (Proc.devRef .tc main_v8) = (invDeg (m ((c : Thread nD τ).loc main_arg2))) := by
  refine Eq.trans ?_ (W2_v8 m ρ c)
  show StableHlo.after hostOps1 (W2 m ρ c) (Proc.devRef .tc main_v8) = _
  dsimp only [hostOps1]
  after_results_simp

/-- The second stretch does not write the first kernel's output array. -/
theorem W3_v21_keep (c : Dev nD) : W3 m ρ c (Proc.devRef .tc main_v21) = W2 m ρ c (Proc.devRef .tc main_v21) := by
  show StableHlo.after hostOps1 (W2 m ρ c) (Proc.devRef .tc main_v21) = _
  dsimp only [hostOps1]
  after_results_simp

/-- The second stretch's mean buffer: the neighbours' mean of the first kernel's output array. -/
theorem W3_v33 (c : Dev nD) : W3 m ρ c (Proc.devRef .tc main_v33) = agg (W2 m ρ c (Proc.devRef .tc main_v21)) (m ((c : Thread nD τ).loc main_arg1)) (m ((c : Thread nD τ).loc main_arg2)) := by
  generalize hX : agg (W2 m ρ c (Proc.devRef .tc main_v21)) (m ((c : Thread nD τ).loc main_arg1)) (m ((c : Thread nD τ).loc main_arg2)) = X
  show StableHlo.after hostOps1 (W2 m ρ c) (Proc.devRef .tc main_v33) = X
  dsimp only [hostOps1]
  after_results_simp
  rw [W2_arg1, W2_arg2, W2_v8, scatterRows_eq, gatherRows_eq]
  subst hX
  unfold agg aggWith wrapIdx
  rfl

/-! ## After the second kernel -/
theorem W4_arg1 (c : Dev nD) : W4 m ρ c (Proc.devRef .tc main_arg1) = (m ((c : Thread nD τ).loc main_arg1)) :=
  (W4_of_ne m ρ c main_arg1 (by decide)).trans (W3_arg1 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_v8 (c : Dev nD) : W4 m ρ c (Proc.devRef .tc main_v8) = (invDeg (m ((c : Thread nD τ).loc main_arg2))) :=
  (W4_of_ne m ρ c main_v8 (by decide)).trans (W3_v8 m ρ c)

/-! ## After the third host stretch -/
theorem W5_arg9 (c : Dev nD) : W5 m ρ c (Proc.devRef .tc main_arg9) = (m ((c : Thread nD τ).loc main_arg9)) := by
  refine Eq.trans ?_ (W4_arg9 m ρ c)
  show StableHlo.after hostOps2 (W4 m ρ c) (Proc.devRef .tc main_arg9) = _
  dsimp only [hostOps2]
  after_results_simp
theorem W5_arg10 (c : Dev nD) : W5 m ρ c (Proc.devRef .tc main_arg10) = (m ((c : Thread nD τ).loc main_arg10)) := by
  refine Eq.trans ?_ (W4_arg10 m ρ c)
  show StableHlo.after hostOps2 (W4 m ρ c) (Proc.devRef .tc main_arg10) = _
  dsimp only [hostOps2]
  after_results_simp
theorem W5_arg11 (c : Dev nD) : W5 m ρ c (Proc.devRef .tc main_arg11) = (m ((c : Thread nD τ).loc main_arg11)) := by
  refine Eq.trans ?_ (W4_arg11 m ρ c)
  show StableHlo.after hostOps2 (W4 m ρ c) (Proc.devRef .tc main_arg11) = _
  dsimp only [hostOps2]
  after_results_simp

/-- The third stretch does not write the second kernel's output array. -/
theorem W5_v34_keep (c : Dev nD) : W5 m ρ c (Proc.devRef .tc main_v34) = W4 m ρ c (Proc.devRef .tc main_v34) := by
  show StableHlo.after hostOps2 (W4 m ρ c) (Proc.devRef .tc main_v34) = _
  dsimp only [hostOps2]
  after_results_simp

/-- The third stretch's mean buffer: the neighbours' mean of the second kernel's output array. -/
theorem W5_v46 (c : Dev nD) : W5 m ρ c (Proc.devRef .tc main_v46) = agg (W4 m ρ c (Proc.devRef .tc main_v34)) (m ((c : Thread nD τ).loc main_arg1)) (m ((c : Thread nD τ).loc main_arg2)) := by
  generalize hX : agg (W4 m ρ c (Proc.devRef .tc main_v34)) (m ((c : Thread nD τ).loc main_arg1)) (m ((c : Thread nD τ).loc main_arg2)) = X
  show StableHlo.after hostOps2 (W4 m ρ c) (Proc.devRef .tc main_v46) = X
  dsimp only [hostOps2]
  after_results_simp
  rw [W4_arg1, W4_arg2, W4_v8, scatterRows_eq, gatherRows_eq]
  subst hX
  unfold agg aggWith wrapIdx
  rfl

end Cert.Sage.FoldHost

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«168584_j4123168604186_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibSageLayer.lean ====
/-
  THE DENSE STEP OF ONE GRAPH-SAGE LAYER, AT AN ENTRY.

  A layer takes node features x [M, K], the neighbours' mean features hn [M, K], two weight matrices Ws, Wn [K, N] and a
  bias b [N], and returns x·Ws + hn·Wn + b (in the hidden layers followed by the maximum with zero). Entry (r, q) of that
  matrix is, over the extended reals,

      ( Σ_k x(r,k)·Ws(k,q)  +  Σ_k hn(r,k)·Wn(k,q) )  +  b(q),

  the two sums and the two additions taken in exactly this order. A kernel that forms the two products into zero
  accumulators and adds the bias as a row repeated down the rows, and a host program that forms them by two dots and adds
  the bias broadcast in two steps, both give this number at every entry: each operation is only read at an entry, and no
  law of arithmetic (so no finiteness) is needed.
-/
import Idealize.ShloMosaic.PureOps.Ideal.Laws
import Idealize.ShloMosaic.Lib.ValueIdx
import Idealize.ShloMosaic.Lib.ValueLayout
import proofs.«168584_j4123168604186_1_alg».proof.Proof.LibRowReads

noncomputable section

open scoped BigOperators

namespace Cert.Sage

open Idealize.ShloMosaic Idealize.ShloMosaic.ValueIdx Cert.Lib

variable {M K N : Nat}

/-- Entry (r, q) of x·Ws + hn·Wn + b: the two contractions over k, added, then the bias entry q added. -/
def mixAt (x hn : FVec Ideal ⟨2, ![M, K]⟩ .f32) (Ws Wn : FVec Ideal ⟨2, ![K, N]⟩ .f32) (b : FVec Ideal ⟨1, ![N]⟩ .f32)
    (r : Fin M) (q : Fin N) : EReal :=
  ((∑ k : Fin K, x (ix2 r k) * Ws (ix2 k q)) + (∑ k : Fin K, hn (ix2 r k) * Wn (ix2 k q))) + b (ix1 q)

/-- The number depends on x and hn only through row r, and on b only through entry q: two sets of operands that agree
    there give the same entry. This is how a block of rows of the features stands for the whole feature matrix. -/
theorem mixAt_congr {M' : Nat} (x hn : FVec Ideal ⟨2, ![M, K]⟩ .f32) (x' hn' : FVec Ideal ⟨2, ![M', K]⟩ .f32)
    (Ws Wn Ws' Wn' : FVec Ideal ⟨2, ![K, N]⟩ .f32) (b b' : FVec Ideal ⟨1, ![N]⟩ .f32) (r : Fin M) (r' : Fin M') (q : Fin N)
    (hx : ∀ k : Fin K, x (ix2 r k) = x' (ix2 r' k)) (hh : ∀ k : Fin K, hn (ix2 r k) = hn' (ix2 r' k))
    (hs : ∀ k : Fin K, Ws (ix2 k q) = Ws' (ix2 k q)) (hw : ∀ k : Fin K, Wn (ix2 k q) = Wn' (ix2 k q))
    (hb : b (ix1 q) = b' (ix1 q)) :
    mixAt x hn Ws Wn b r q = mixAt x' hn' Ws' Wn' b' r' q := by
  unfold mixAt
  have e1 : (∑ k : Fin K, x (ix2 r k) * Ws (ix2 k q)) = ∑ k : Fin K, x' (ix2 r' k) * Ws' (ix2 k q) :=
    Finset.sum_congr rfl fun k _ => by rw [hx k, hs k]
  have e2 : (∑ k : Fin K, hn (ix2 r k) * Wn (ix2 k q)) = ∑ k : Fin K, hn' (ix2 r' k) * Wn' (ix2 k q) :=
    Finset.sum_congr rfl fun k _ => by rw [hh k, hw k]
  rw [e1, e2, hb]

/-- THE HOST PROGRAM'S SPELLING: two dots of plain [M,K]×[K,N] shape, added, plus the bias made a [1,N] row and then
    repeated down the M rows. At (r, q) it is the layer's entry. -/
theorem host_mix_at (d : DotDims ⟨2, ![M, K]⟩ ⟨2, ![K, N]⟩ ⟨2, ![M, N]⟩)
    (hl : d.lhsContracting = [1]) (hr : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![M, N]⟩ ![0, 1])
    (x hn : FVec Ideal ⟨2, ![M, K]⟩ .f32) (Ws Wn : FVec Ideal ⟨2, ![K, N]⟩ .f32) (b : FVec Ideal ⟨1, ![N]⟩ .f32)
    (r : Fin M) (q : Fin N) :
    addf (addf (Host.dotGeneral d none x Ws) (Host.dotGeneral d none hn Wn))
        (broadcastInDim ⟨2, ![M, N]⟩ ![0, 1] h2 (broadcastInDim ⟨2, ![1, N]⟩ ![1] h1 b)) (ix2 r q)
      = mixAt x hn Ws Wn b r q := by
  rw [addf_apply, addf_apply, dotGeneral_at d hl hr hln hrn hlb hrb, dotGeneral_at d hl hr hln hrn hlb hrb,
    bcastInDim_vecRows_apply]
  rfl

/-- THE KERNEL'S SPELLING: two matrix products into zero accumulators, added, plus the bias re-laid as a [1,N] row and
    repeated down the M rows. At (r, q) it is the same entry. The operands of the products may carry any float format
    (a narrowing is the identity on the extended reals). -/
theorem kernel_mix_at (d : DotDims ⟨2, ![M, K]⟩ ⟨2, ![K, N]⟩ ⟨2, ![M, N]⟩)
    (hl : d.lhsContracting = [1]) (hr : d.rhsContracting = [0]) (hln : d.lhsNonContracting = [0])
    (hrn : d.rhsNonContracting = [1]) (hlb : d.lhsBatch = []) (hrb : d.rhsBatch = [])
    (hc : (⟨1, ![N]⟩ : Shape).ShapeCasts ⟨2, ![1, N]⟩) (hbr : (⟨2, ![1, N]⟩ : Shape).Broadcasts ⟨2, ![M, N]⟩)
    (x hn : FVec Ideal ⟨2, ![M, K]⟩ .f32) (Ws Wn : FVec Ideal ⟨2, ![K, N]⟩ .f32) (b : FVec Ideal ⟨1, ![N]⟩ .f32)
    (r : Fin M) (q : Fin N) :
    addf (addf (matmul d none (x : FVec Ideal ⟨2, ![M, K]⟩ .bf16) (Ws : FVec Ideal ⟨2, ![K, N]⟩ .bf16)
                  (constant (F := Ideal) ⟨2, ![M, N]⟩ .f32 0x00000000#32))
               (matmul d none (hn : FVec Ideal ⟨2, ![M, K]⟩ .bf16) (Wn : FVec Ideal ⟨2, ![K, N]⟩ .bf16)
                  (constant (F := Ideal) ⟨2, ![M, N]⟩ .f32 0x00000000#32)))
        (broadcastTo ⟨2, ![M, N]⟩ (shapeCast ⟨2, ![1, N]⟩ b hc) hbr) (ix2 r q)
      = mixAt x hn Ws Wn b r q := by
  rw [addf_apply, addf_apply, matmul_zero_at d hl hr hln hrn hlb hrb, matmul_zero_at d hl hr hln hrn hlb hrb,
    bcast_vec_apply]
  rfl

end Cert.Sage

end
-- ==== Proof.Region0.lean ====
/-
  THE FIRST LAYER'S KERNEL WRITES THE HIDDEN LAYER OF ITS INPUT ARRAYS.

  The kernel runs at ten grid points; at point t it is handed rows 5000·t … 5000·t + 4999 of the feature matrix and of
  the neighbours' mean, the two whole weight matrices and the whole bias, and writes back rows 5000·t … 5000·t + 4999 of
  its output. Entry (p, q) of what it writes is max( (Σ_k x(p,k)·Ws(k,q) + Σ_k hn(p,k)·Wn(k,q)) + b(q), 0 ) of the
  blocks it holds, which is entry (5000·t + p, q) of the hidden layer of the whole arrays, because that entry depends on
  the features only through row 5000·t + p. The ten blocks of rows tile the 50000 rows, so after the last point the
  output array is the hidden layer of the arrays the region found, whatever those arrays are.
-/
import proofs.«168584_j4123168604186_1_alg».proof.Proof.Gen.KernelIdeal.Frame
import proofs.«168584_j4123168604186_1_alg».proof.Proof.Gen.ReferenceIdeal
import proofs.«168584_j4123168604186_1_alg».proof.Proof.SageSpec
import proofs.«168584_j4123168604186_1_alg».proof.Proof.LibSageLayer
import Idealize.ShloMosaic.Lib.Pipeline.Value

set_option maxRecDepth 16384

noncomputable section

open scoped BigOperators

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Entry (p, q) of the body's stored value, from the five blocks it loaded. -/
theorem pay_at (x0 x1 : FVec Ideal S5000x128 .f32) (x2 x3 : FVec Ideal S128x128 .f32) (x4 : FVec Ideal S128 .f32)
    (p : Fin 5000) (q : Fin 128) :
    k0_pay1 (F := Ideal) x0 x1 x2 x3 x4 (ix2 p q)
      = max (mixAt x0 x1 x2 x3 x4 p q) (Ideal.ofBits .f32 0x00000000#32) := by
  unfold k0_pay1
  rw [shapeCast_self]
  refine congrArg (fun z : EReal => max z (Ideal.ofBits .f32 0x00000000#32)) ?_
  exact kernel_mix_at dot_S5000x128_S128x128_S5000x128_1_0_0_1_n_n rfl rfl rfl rfl rfl rfl _ _ x0 x1 x2 x3 x4 p q

/-- Entry (R, q) of the hidden layer in the host program's spelling. -/
theorem layer_at (X HN : FVec Ideal Cert.ReferenceIdeal.S50000x128 .f32) (Ws Wn : FVec Ideal Cert.ReferenceIdeal.S128x128 .f32)
    (B : FVec Ideal Cert.ReferenceIdeal.S128 .f32) (R : Fin 50000) (q : Fin 128) :
    relu (F := Ideal) (mix128 X HN Ws Wn B) (ix2 R q)
      = max (mixAt X HN Ws Wn B R q) (Ideal.ofBits .f32 0x00000000#32) := by
  unfold relu mix128
  rw [maximumf_apply, bcast_const_apply]
  refine congrArg (fun z : EReal => max z (Ideal.ofBits .f32 0x00000000#32)) ?_
  exact host_mix_at Cert.ReferenceIdeal.dot_S50000x128_S128x128_S50000x128_1_0_0_1_n_n rfl rfl rfl rfl rfl rfl _ _ X HN Ws Wn B R q

/-- The printed index maps over the grid: the row windows move one block per point, the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of the features' block at point t is row 5000·t + p of the features. -/
theorem rows_x (c : Dev nD) (t : Fin cfg0.N) (p : Fin 5000) (k : Fin 128) (R : Fin 50000)
    (hR : R.val = 5000 * t.val + p.val) :
    (iblk0 V c 0 t : Vec Ideal S5000x128 .f32) (ix2 p k)
      = (V c main_arg0 : S50000x128.Idx → Ideal .f32) (ix2 R k) := by
  obtain ⟨e0, e1, -⟩ := idx_facts t
  unfold iblk0
  rw [View.read_apply]
  refine congrArg (V c main_arg0 : S50000x128.Idx → Ideal .f32) ?_
  funext a
  apply Fin.ext
  match a with
  | ⟨0, _⟩ => show win0_0.index t (0 : Fin 2) * 5000 + 1 * p.val = R.val; rw [e0, hR]; omega
  | ⟨1, _⟩ => show win0_0.index t (1 : Fin 2) * 128 + 1 * k.val = k.val; rw [e1]; omega

/-- Row p of the neighbours' mean's block at point t is row 5000·t + p of the neighbours' mean. -/
theorem rows_hn (c : Dev nD) (t : Fin cfg0.N) (p : Fin 5000) (k : Fin 128) (R : Fin 50000)
    (hR : R.val = 5000 * t.val + p.val) :
    (iblk0 V c 1 t : Vec Ideal S5000x128 .f32) (ix2 p k)
      = (V c main_v20 : S50000x128.Idx → Ideal .f32) (ix2 R k) := by
  obtain ⟨-, -, e0, e1, -⟩ := idx_facts t
  unfold iblk0
  rw [View.read_apply]
  refine congrArg (V c main_v20 : S50000x128.Idx → Ideal .f32) ?_
  funext a
  apply Fin.ext
  match a with
  | ⟨0, _⟩ => show win0_1.index t (0 : Fin 2) * 5000 + 1 * p.val = R.val; rw [e0, hR]; omega
  | ⟨1, _⟩ => show win0_1.index t (1 : Fin 2) * 128 + 1 * k.val = k.val; rw [e1]; omega

/-- The self weight's block is the whole weight at every point. -/
theorem whole_ws (c : Dev nD) (t : Fin cfg0.N) (k : Fin 128) (q : Fin 128) :
    (iblk0 V c 2 t : Vec Ideal S128x128 .f32) (ix2 k q) = (V c main_arg3 : S128x128.Idx → Ideal .f32) (ix2 k q) := by
  obtain ⟨-, -, -, -, e0, e1, -⟩ := idx_facts t
  unfold iblk0
  rw [View.read_apply]
  refine congrArg (V c main_arg3 : S128x128.Idx → Ideal .f32) ?_
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The neighbour weight's block is the whole weight at every point. -/
theorem whole_wn (c : Dev nD) (t : Fin cfg0.N) (k : Fin 128) (q : Fin 128) :
    (iblk0 V c 3 t : Vec Ideal S128x128 .f32) (ix2 k q) = (V c main_arg4 : S128x128.Idx → Ideal .f32) (ix2 k q) := by
  obtain ⟨-, -, -, -, -, -, e0, e1, -⟩ := idx_facts t
  unfold iblk0
  rw [View.read_apply]
  refine congrArg (V c main_arg4 : S128x128.Idx → Ideal .f32) ?_
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias's block is the whole bias at every point. -/
theorem whole_b (c : Dev nD) (t : Fin cfg0.N) (q : Fin 128) :
    (iblk0 V c 4 t : Vec Ideal S128 .f32) (ix1 q) = (V c main_arg5 : S128.Idx → Ideal .f32) (ix1 q) := by
  obtain ⟨-, -, -, -, -, -, -, -, e0, -⟩ := idx_facts t
  unfold iblk0
  rw [View.read_apply]
  refine congrArg (V c main_arg5 : S128.Idx → Ideal .f32) ?_
  funext a
  apply Fin.ext
  match a with
  | ⟨0, _⟩ => show win0_4.index t (0 : Fin 1) * 128 + 1 * q.val = q.val; rw [e0]; omega

/-- WHAT POINT t WRITES BACK is block t of the hidden layer of the arrays the region found. -/
theorem flushed_eq (c : Dev nD) (t : Fin cfg0.N) :
    (dat0 V c).flushed 5 t = ((cfg0.win 5).blk t).view.read (Elt Ideal)
      (relu (F := Ideal) (mix128 (V c main_arg0) (V c main_v20) (V c main_arg3) (V c main_arg4) (V c main_arg5))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  have ht : t.val < 10 := by have h := t.isLt; have hN : cfg0.N = 10 := N_0; omega
  obtain ⟨-, -, -, -, -, -, -, -, -, e0, e1⟩ := idx_facts t
  have hemb : ((cfg0.win 5).blk t).view.emb (ix2 p q) = ix2 (⟨5000 * t.val + p.val, by omega⟩ : Fin 50000) q := by
    funext a
    apply Fin.ext
    match a with
    | ⟨0, _⟩ => show win0_5.index t (0 : Fin 2) * 5000 + 1 * p.val = 5000 * t.val + p.val; rw [e0]; omega
    | ⟨1, _⟩ => show win0_5.index t (1 : Fin 2) * 128 + 1 * q.val = q.val; rw [e1]; omega
  rw [View.read_apply, hemb]
  refine (pay_at (iblk0 V c 0 t) (iblk0 V c 1 t) (iblk0 V c 2 t) (iblk0 V c 3 t) (iblk0 V c 4 t) p q).trans ?_
  refine Eq.trans ?_ (layer_at (V c main_arg0) (V c main_v20) (V c main_arg3) (V c main_arg4) (V c main_arg5) _ q).symm
  refine congrArg (fun z : EReal => max z (Ideal.ofBits .f32 0x00000000#32)) ?_
  exact mixAt_congr _ _ _ _ _ _ _ _ _ _ p _ q
    (fun k => rows_x V c t p k _ rfl) (fun k => rows_hn V c t p k _ rfl)
    (fun k => whole_ws V c t k q) (fun k => whole_wn V c t k q) (whole_b V c t q)

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v21).slice (win0_5.rect t)).set ↔ _
  rw [View.set_slice_whole, Rect.mem_set_unit]
  exact Iff.rfl

/-- Every row is in the block of the point its index divided by 5000 names. -/
theorem cover (i : S50000x128.Idx) : ∃ t : Fin cfg0.N, (cfg0.win 5).flush t = true ∧ i ∈ ((cfg0.win 5).blk t).view.set := by
  have h0 : (i 0).val < 50000 := (i 0).isLt
  have h1 : (i 1).val < 128 := (i 1).isLt
  let t : Fin cfg0.N := ⟨(i 0).val / 5000, by rw [show cfg0.N = 10 from N_0]; omega⟩
  have htv : t.val = (i 0).val / 5000 := rfl
  obtain ⟨-, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, htv]; omega
  | ⟨1, _⟩ =>
    show win0_5.index t (1 : Fin 2) * 128 ≤ (i 1).val ∧ (i 1).val < win0_5.index t (1 : Fin 2) * 128 + 128
    rw [e1]; omega

/-- THE REGION'S OUTPUT ARRAY after its ten points: the hidden layer of the arrays the region found. -/
theorem array (c : Dev nD) :
    (dat0 V c).arrAt 5 cfg0.N
      = relu (F := Ideal) (mix128 (V c main_arg0) (V c main_v20) (V c main_arg3) (V c main_arg4) (V c main_arg5)) :=
  (dat0 V c).arrAt_eq_of_cover 5 _ (fun t _ => flushed_eq V c t) cover

end Cert.Sage.Region0

end
-- ==== Proof.Region1.lean ====
/-
  THE SECOND LAYER'S KERNEL WRITES THE HIDDEN LAYER OF ITS INPUT ARRAYS.

  The kernel runs at ten grid points; at point t it is handed rows 5000·t … 5000·t + 4999 of the feature matrix and of
  the neighbours' mean, the two whole weight matrices and the whole bias, and writes back rows 5000·t … 5000·t + 4999 of
  its output. Entry (p, q) of what it writes is max( (Σ_k x(p,k)·Ws(k,q) + Σ_k hn(p,k)·Wn(k,q)) + b(q), 0 ) of the
  blocks it holds, which is entry (5000·t + p, q) of the hidden layer of the whole arrays, because that entry depends on
  the features only through row 5000·t + p. The ten blocks of rows tile the 50000 rows, so after the last point the
  output array is the hidden layer of the arrays the region found, whatever those arrays are.
-/
import proofs.«168584_j4123168604186_1_alg».proof.Proof.Gen.KernelIdeal.Frame
import proofs.«168584_j4123168604186_1_alg».proof.Proof.Gen.ReferenceIdeal
import proofs.«168584_j4123168604186_1_alg».proof.Proof.SageSpec
import proofs.«168584_j4123168604186_1_alg».proof.Proof.LibSageLayer
import Idealize.ShloMosaic.Lib.Pipeline.Value

set_option maxRecDepth 16384

noncomputable section

open scoped BigOperators

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Entry (p, q) of the body's stored value, from the five blocks it loaded. -/
theorem pay_at (x0 x1 : FVec Ideal S5000x128 .f32) (x2 x3 : FVec Ideal S128x128 .f32) (x4 : FVec Ideal S128 .f32)
    (p : Fin 5000) (q : Fin 128) :
    k1_pay1 (F := Ideal) x0 x1 x2 x3 x4 (ix2 p q)
      = max (mixAt x0 x1 x2 x3 x4 p q) (Ideal.ofBits .f32 0x00000000#32) := by
  unfold k1_pay1
  rw [shapeCast_self, shapeCast_self]
  refine congrArg (fun z : EReal => max z (Ideal.ofBits .f32 0x00000000#32)) ?_
  exact kernel_mix_at dot_S5000x128_S128x128_S5000x128_1_0_0_1_n_n rfl rfl rfl rfl rfl rfl _ _ x0 x1 x2 x3 x4 p q

/-- Entry (R, q) of the hidden layer in the host program's spelling. -/
theorem layer_at (X HN : FVec Ideal Cert.ReferenceIdeal.S50000x128 .f32) (Ws Wn : FVec Ideal Cert.ReferenceIdeal.S128x128 .f32)
    (B : FVec Ideal Cert.ReferenceIdeal.S128 .f32) (R : Fin 50000) (q : Fin 128) :
    relu (F := Ideal) (mix128 X HN Ws Wn B) (ix2 R q)
      = max (mixAt X HN Ws Wn B R q) (Ideal.ofBits .f32 0x00000000#32) := by
  unfold relu mix128
  rw [maximumf_apply, bcast_const_apply]
  refine congrArg (fun z : EReal => max z (Ideal.ofBits .f32 0x00000000#32)) ?_
  exact host_mix_at Cert.ReferenceIdeal.dot_S50000x128_S128x128_S50000x128_1_0_0_1_n_n rfl rfl rfl rfl rfl rfl _ _ X HN Ws Wn B R q

/-- The printed index maps over the grid: the row windows move one block per point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the features' block at point t is row 5000·t + p of the features. -/
theorem rows_x (c : Dev nD) (t : Fin cfg1.N) (p : Fin 5000) (k : Fin 128) (R : Fin 50000)
    (hR : R.val = 5000 * t.val + p.val) :
    (iblk1 V c 0 t : Vec Ideal S5000x128 .f32) (ix2 p k)
      = (V c main_v21 : S50000x128.Idx → Ideal .f32) (ix2 R k) := by
  obtain ⟨e0, e1, -⟩ := idx_facts t
  unfold iblk1
  rw [View.read_apply]
  refine congrArg (V c main_v21 : S50000x128.Idx → Ideal .f32) ?_
  funext a
  apply Fin.ext
  match a with
  | ⟨0, _⟩ => show win1_0.index t (0 : Fin 2) * 5000 + 1 * p.val = R.val; rw [e0, hR]; omega
  | ⟨1, _⟩ => show win1_0.index t (1 : Fin 2) * 128 + 1 * k.val = k.val; rw [e1]; omega

/-- Row p of the neighbours' mean's block at point t is row 5000·t + p of the neighbours' mean. -/
theorem rows_hn (c : Dev nD) (t : Fin cfg1.N) (p : Fin 5000) (k : Fin 128) (R : Fin 50000)
    (hR : R.val = 5000 * t.val + p.val) :
    (iblk1 V c 1 t : Vec Ideal S5000x128 .f32) (ix2 p k)
      = (V c main_v33 : S50000x128.Idx → Ideal .f32) (ix2 R k) := by
  obtain ⟨-, -, e0, e1, -⟩ := idx_facts t
  unfold iblk1
  rw [View.read_apply]
  refine congrArg (V c main_v33 : S50000x128.Idx → Ideal .f32) ?_
  funext a
  apply Fin.ext
  match a with
  | ⟨0, _⟩ => show win1_1.index t (0 : Fin 2) * 5000 + 1 * p.val = R.val; rw [e0, hR]; omega
  | ⟨1, _⟩ => show win1_1.index t (1 : Fin 2) * 128 + 1 * k.val = k.val; rw [e1]; omega

/-- The self weight's block is the whole weight at every point. -/
theorem whole_ws (c : Dev nD) (t : Fin cfg1.N) (k : Fin 128) (q : Fin 128) :
    (iblk1 V c 2 t : Vec Ideal S128x128 .f32) (ix2 k q) = (V c main_arg6 : S128x128.Idx → Ideal .f32) (ix2 k q) := by
  obtain ⟨-, -, -, -, e0, e1, -⟩ := idx_facts t
  unfold iblk1
  rw [View.read_apply]
  refine congrArg (V c main_arg6 : S128x128.Idx → Ideal .f32) ?_
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The neighbour weight's block is the whole weight at every point. -/
theorem whole_wn (c : Dev nD) (t : Fin cfg1.N) (k : Fin 128) (q : Fin 128) :
    (iblk1 V c 3 t : Vec Ideal S128x128 .f32) (ix2 k q) = (V c main_arg7 : S128x128.Idx → Ideal .f32) (ix2 k q) := by
  obtain ⟨-, -, -, -, -, -, e0, e1, -⟩ := idx_facts t
  unfold iblk1
  rw [View.read_apply]
  refine congrArg (V c main_arg7 : S128x128.Idx → Ideal .f32) ?_
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias's block is the whole bias at every point. -/
theorem whole_b (c : Dev nD) (t : Fin cfg1.N) (q : Fin 128) :
    (iblk1 V c 4 t : Vec Ideal S128 .f32) (ix1 q) = (V c main_arg8 : S128.Idx → Ideal .f32) (ix1 q) := by
  obtain ⟨-, -, -, -, -, -, -, -, e0, -⟩ := idx_facts t
  unfold iblk1
  rw [View.read_apply]
  refine congrArg (V c main_arg8 : S128.Idx → Ideal .f32) ?_
  funext a
  apply Fin.ext
  match a with
  | ⟨0, _⟩ => show win1_4.index t (0 : Fin 1) * 128 + 1 * q.val = q.val; rw [e0]; omega

/-- WHAT POINT t WRITES BACK is block t of the hidden layer of the arrays the region found. -/
theorem flushed_eq (c : Dev nD) (t : Fin cfg1.N) :
    (dat1 V c).flushed 5 t = ((cfg1.win 5).blk t).view.read (Elt Ideal)
      (relu (F := Ideal) (mix128 (V c main_v21) (V c main_v33) (V c main_arg6) (V c main_arg7) (V c main_arg8))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  have ht : t.val < 10 := by have h := t.isLt; have hN : cfg1.N = 10 := N_1; omega
  obtain ⟨-, -, -, -, -, -, -, -, -, e0, e1⟩ := idx_facts t
  have hemb : ((cfg1.win 5).blk t).view.emb (ix2 p q) = ix2 (⟨5000 * t.val + p.val, by omega⟩ : Fin 50000) q := by
    funext a
    apply Fin.ext
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega
  rw [View.read_apply, hemb]
  refine (pay_at (iblk1 V c 0 t) (iblk1 V c 1 t) (iblk1 V c 2 t) (iblk1 V c 3 t) (iblk1 V c 4 t) p q).trans ?_
  refine Eq.trans ?_ (layer_at (V c main_v21) (V c main_v33) (V c main_arg6) (V c main_arg7) (V c main_arg8) _ q).symm
  refine congrArg (fun z : EReal => max z (Ideal.ofBits .f32 0x00000000#32)) ?_
  exact mixAt_congr _ _ _ _ _ _ _ _ _ _ p _ q
    (fun k => rows_x V c t p k _ rfl) (fun k => rows_hn V c t p k _ rfl)
    (fun k => whole_ws V c t k q) (fun k => whole_wn V c t k q) (whole_b V c t q)

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v34).slice (win1_5.rect t)).set ↔ _
  rw [View.set_slice_whole, Rect.mem_set_unit]
  exact Iff.rfl

/-- Every row is in the block of the point its index divided by 5000 names. -/
theorem cover (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  let t : Fin cfg1.N := ⟨(i 0).val / 5000, by rw [show cfg1.N = 10 from N_1]; omega⟩
  have htv : t.val = (i 0).val / 5000 := rfl
  obtain ⟨-, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, htv]; omega
  | ⟨1, _⟩ =>
    show win1_5.index t (1 : Fin 2) * 128 ≤ (i 1).val ∧ (i 1).val < win1_5.index t (1 : Fin 2) * 128 + 128
    rw [e1]; omega

/-- THE REGION'S OUTPUT ARRAY after its ten points: the hidden layer of the arrays the region found. -/
theorem array (c : Dev nD) :
    (dat1 V c).arrAt 5 cfg1.N
      = relu (F := Ideal) (mix128 (V c main_v21) (V c main_v33) (V c main_arg6) (V c main_arg7) (V c main_arg8)) :=
  (dat1 V c).arrAt_eq_of_cover 5 _ (fun t _ => flushed_eq V c t) cover

end Cert.Sage.Region1

end
-- ==== Proof.Region2.lean ====
/-
  THE THIRD LAYER'S KERNEL WRITES THE OUTPUT LAYER OF ITS INPUT ARRAYS.

  The kernel runs at ten grid points; at point t it is handed rows 5000·t … 5000·t + 4999 of the feature matrix and of
  the neighbours' mean, the two whole weight matrices and the whole bias, and writes back rows 5000·t … 5000·t + 4999 of
  its output. Entry (p, q) of what it writes is (Σ_k x(p,k)·Ws(k,q) + Σ_k hn(p,k)·Wn(k,q)) + b(q) of the
  blocks it holds, which is entry (5000·t + p, q) of the output layer of the whole arrays, because that entry depends on
  the features only through row 5000·t + p. The ten blocks of rows tile the 50000 rows, so after the last point the
  output array is the output layer of the arrays the region found, whatever those arrays are.
-/
import proofs.«168584_j4123168604186_1_alg».proof.Proof.Gen.KernelIdeal.Frame
import proofs.«168584_j4123168604186_1_alg».proof.Proof.Gen.ReferenceIdeal
import proofs.«168584_j4123168604186_1_alg».proof.Proof.SageSpec
import proofs.«168584_j4123168604186_1_alg».proof.Proof.LibSageLayer
import Idealize.ShloMosaic.Lib.Pipeline.Value

set_option maxRecDepth 16384

noncomputable section

open scoped BigOperators

namespace Cert.Sage.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Entry (p, q) of the body's stored value, from the five blocks it loaded. -/
theorem pay_at (x0 x1 : FVec Ideal S5000x128 .f32) (x2 x3 : FVec Ideal S128x47 .f32) (x4 : FVec Ideal S47 .f32)
    (p : Fin 5000) (q : Fin 47) :
    k2_pay1 (F := Ideal) x0 x1 x2 x3 x4 (ix2 p q)
      = mixAt x0 x1 x2 x3 x4 p q := by
  unfold k2_pay1
  rw [shapeCast_self, shapeCast_self]
  exact kernel_mix_at dot_S5000x128_S128x47_S5000x47_1_0_0_1_n_n rfl rfl rfl rfl rfl rfl _ _ x0 x1 x2 x3 x4 p q

/-- Entry (R, q) of the output layer in the host program's spelling. -/
theorem layer_at (X HN : FVec Ideal Cert.ReferenceIdeal.S50000x128 .f32) (Ws Wn : FVec Ideal Cert.ReferenceIdeal.S128x47 .f32)
    (B : FVec Ideal Cert.ReferenceIdeal.S47 .f32) (R : Fin 50000) (q : Fin 47) :
    mix47 (F := Ideal) X HN Ws Wn B (ix2 R q)
      = mixAt X HN Ws Wn B R q := by
  unfold mix47
  exact host_mix_at Cert.ReferenceIdeal.dot_S50000x128_S128x47_S50000x47_1_0_0_1_n_n rfl rfl rfl rfl rfl rfl _ _ X HN Ws Wn B R q

/-- The printed index maps over the grid: the row windows move one block per point, the weights and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row p of the features' block at point t is row 5000·t + p of the features. -/
theorem rows_x (c : Dev nD) (t : Fin cfg2.N) (p : Fin 5000) (k : Fin 128) (R : Fin 50000)
    (hR : R.val = 5000 * t.val + p.val) :
    (iblk2 V c 0 t : Vec Ideal S5000x128 .f32) (ix2 p k)
      = (V c main_v34 : S50000x128.Idx → Ideal .f32) (ix2 R k) := by
  obtain ⟨e0, e1, -⟩ := idx_facts t
  unfold iblk2
  rw [View.read_apply]
  refine congrArg (V c main_v34 : S50000x128.Idx → Ideal .f32) ?_
  funext a
  apply Fin.ext
  match a with
  | ⟨0, _⟩ => show win2_0.index t (0 : Fin 2) * 5000 + 1 * p.val = R.val; rw [e0, hR]; omega
  | ⟨1, _⟩ => show win2_0.index t (1 : Fin 2) * 128 + 1 * k.val = k.val; rw [e1]; omega

/-- Row p of the neighbours' mean's block at point t is row 5000·t + p of the neighbours' mean. -/
theorem rows_hn (c : Dev nD) (t : Fin cfg2.N) (p : Fin 5000) (k : Fin 128) (R : Fin 50000)
    (hR : R.val = 5000 * t.val + p.val) :
    (iblk2 V c 1 t : Vec Ideal S5000x128 .f32) (ix2 p k)
      = (V c main_v46 : S50000x128.Idx → Ideal .f32) (ix2 R k) := by
  obtain ⟨-, -, e0, e1, -⟩ := idx_facts t
  unfold iblk2
  rw [View.read_apply]
  refine congrArg (V c main_v46 : S50000x128.Idx → Ideal .f32) ?_
  funext a
  apply Fin.ext
  match a with
  | ⟨0, _⟩ => show win2_1.index t (0 : Fin 2) * 5000 + 1 * p.val = R.val; rw [e0, hR]; omega
  | ⟨1, _⟩ => show win2_1.index t (1 : Fin 2) * 128 + 1 * k.val = k.val; rw [e1]; omega

/-- The self weight's block is the whole weight at every point. -/
theorem whole_ws (c : Dev nD) (t : Fin cfg2.N) (k : Fin 128) (q : Fin 47) :
    (iblk2 V c 2 t : Vec Ideal S128x47 .f32) (ix2 k q) = (V c main_arg9 : S128x47.Idx → Ideal .f32) (ix2 k q) := by
  obtain ⟨-, -, -, -, e0, e1, -⟩ := idx_facts t
  unfold iblk2
  rw [View.read_apply]
  refine congrArg (V c main_arg9 : S128x47.Idx → Ideal .f32) ?_
  funext a
  apply Fin.ext
  match a with
  | ⟨0, _⟩ => show win2_2.index t (0 : Fin 2) * 128 + 1 * k.val = k.val; rw [e0]; omega
  | ⟨1, _⟩ => show win2_2.index t (1 : Fin 2) * 47 + 1 * q.val = q.val; rw [e1]; omega

/-- The neighbour weight's block is the whole weight at every point. -/
theorem whole_wn (c : Dev nD) (t : Fin cfg2.N) (k : Fin 128) (q : Fin 47) :
    (iblk2 V c 3 t : Vec Ideal S128x47 .f32) (ix2 k q) = (V c main_arg10 : S128x47.Idx → Ideal .f32) (ix2 k q) := by
  obtain ⟨-, -, -, -, -, -, e0, e1, -⟩ := idx_facts t
  unfold iblk2
  rw [View.read_apply]
  refine congrArg (V c main_arg10 : S128x47.Idx → Ideal .f32) ?_
  funext a
  apply Fin.ext
  match a with
  | ⟨0, _⟩ => show win2_3.index t (0 : Fin 2) * 128 + 1 * k.val = k.val; rw [e0]; omega
  | ⟨1, _⟩ => show win2_3.index t (1 : Fin 2) * 47 + 1 * q.val = q.val; rw [e1]; omega

/-- The bias's block is the whole bias at every point. -/
theorem whole_b (c : Dev nD) (t : Fin cfg2.N) (q : Fin 47) :
    (iblk2 V c 4 t : Vec Ideal S47 .f32) (ix1 q) = (V c main_arg11 : S47.Idx → Ideal .f32) (ix1 q) := by
  obtain ⟨-, -, -, -, -, -, -, -, e0, -⟩ := idx_facts t
  unfold iblk2
  rw [View.read_apply]
  refine congrArg (V c main_arg11 : S47.Idx → Ideal .f32) ?_
  funext a
  apply Fin.ext
  match a with
  | ⟨0, _⟩ => show win2_4.index t (0 : Fin 1) * 47 + 1 * q.val = q.val; rw [e0]; omega

/-- WHAT POINT t WRITES BACK is block t of the output layer of the arrays the region found. -/
theorem flushed_eq (c : Dev nD) (t : Fin cfg2.N) :
    (dat2 V c).flushed 5 t = ((cfg2.win 5).blk t).view.read (Elt Ideal)
      (mix47 (F := Ideal) (V c main_v34) (V c main_v46) (V c main_arg9) (V c main_arg10) (V c main_arg11)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x47) hz, View.ld_unit_zero (S := S47) hz1]
  funext j
  obtain ⟨p, q, rfl⟩ : ∃ (p : Fin 5000) (q : Fin 47), j = ix2 p q := ⟨j 0, j 1, eq_ix2 j⟩
  have ht : t.val < 10 := by have h := t.isLt; have hN : cfg2.N = 10 := N_2; omega
  obtain ⟨-, -, -, -, -, -, -, -, -, e0, e1⟩ := idx_facts t
  have hemb : ((cfg2.win 5).blk t).view.emb (ix2 p q) = ix2 (⟨5000 * t.val + p.val, by omega⟩ : Fin 50000) q := by
    funext a
    apply Fin.ext
    match a with
    | ⟨0, _⟩ => show win2_5.index t (0 : Fin 2) * 5000 + 1 * p.val = 5000 * t.val + p.val; rw [e0]; omega
    | ⟨1, _⟩ => show win2_5.index t (1 : Fin 2) * 47 + 1 * q.val = q.val; rw [e1]; omega
  rw [View.read_apply, hemb]
  refine (pay_at (iblk2 V c 0 t) (iblk2 V c 1 t) (iblk2 V c 2 t) (iblk2 V c 3 t) (iblk2 V c 4 t) p q).trans ?_
  refine Eq.trans ?_ (layer_at (V c main_v34) (V c main_v46) (V c main_arg9) (V c main_arg10) (V c main_arg11) _ q).symm
  exact mixAt_congr _ _ _ _ _ _ _ _ _ _ p _ q
    (fun k => rows_x V c t p k _ rfl) (fun k => rows_hn V c t p k _ rfl)
    (fun k => whole_ws V c t k q) (fun k => whole_wn V c t k q) (whole_b V c t q)

/-- An index of the output array is in point t's block iff each coordinate is in the block's range on its axis. -/
theorem mem_blk (t : Fin cfg2.N) (i : S50000x47.Idx) :
    i ∈ ((cfg2.win 5).blk t).view.set ↔ ∀ a : Fin 2, win2_5.index t a * S5000x47.size a ≤ (i a).val
      ∧ (i a).val < win2_5.index t a * S5000x47.size a + S5000x47.size a := by
  show i ∈ ((View.whole main_v47).slice (win2_5.rect t)).set ↔ _
  rw [View.set_slice_whole, Rect.mem_set_unit]
  exact Iff.rfl

/-- Every row is in the block of the point its index divided by 5000 names. -/
theorem cover (i : S50000x47.Idx) : ∃ t : Fin cfg2.N, (cfg2.win 5).flush t = true ∧ i ∈ ((cfg2.win 5).blk t).view.set := by
  have h0 : (i 0).val < 50000 := (i 0).isLt
  have h1 : (i 1).val < 47 := (i 1).isLt
  let t : Fin cfg2.N := ⟨(i 0).val / 5000, by rw [show cfg2.N = 10 from N_2]; omega⟩
  have htv : t.val = (i 0).val / 5000 := rfl
  obtain ⟨-, -, -, -, -, -, -, -, -, e0, e1⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e0, htv]; omega
  | ⟨1, _⟩ =>
    show win2_5.index t (1 : Fin 2) * 47 ≤ (i 1).val ∧ (i 1).val < win2_5.index t (1 : Fin 2) * 47 + 47
    rw [e1]; omega

/-- THE REGION'S OUTPUT ARRAY after its ten points: the output layer of the arrays the region found. -/
theorem array (c : Dev nD) :
    (dat2 V c).arrAt 5 cfg2.N
      = mix47 (F := Ideal) (V c main_v34) (V c main_v46) (V c main_arg9) (V c main_arg10) (V c main_arg11) :=
  (dat2 V c).arrAt_eq_of_cover 5 _ (fun t _ => flushed_eq V c t) cover

end Cert.Sage.Region2

end
-- ==== Proof.Fold.lean ====
/-
  THE KERNEL PROGRAM'S RESULT, SEGMENT BY SEGMENT.

  Write A0 … A11 for the argument arrays at launch, h1 = hidden A0 and h2 = hidden h1 for the two hidden layers (each
  with its own weights and bias), agg for the neighbours' mean. Following the program's six segments:
    after the first host stretch    the mean buffer is agg A0;
    after the first kernel          its output array is h1 (a kernel writes the layer of the arrays it finds);
    after the second host stretch   the mean buffer is agg h1, computed from the first kernel's output;
    after the second kernel         its output array is h2;
    after the third host stretch    the mean buffer is agg h2;
    after the third kernel          the result array is h2·W9 + (agg h2)·W10 + b11, the network.
-/
import proofs.«168584_j4123168604186_1_alg».proof.Proof.FoldHost
import proofs.«168584_j4123168604186_1_alg».proof.Proof.Region0
import proofs.«168584_j4123168604186_1_alg».proof.Proof.Region1
import proofs.«168584_j4123168604186_1_alg».proof.Proof.Region2

set_option maxRecDepth 16384

noncomputable section

namespace Cert.Sage.Fold

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first kernel's output array is the first hidden layer. -/
theorem W2_v21 (c : Dev nD) : W2 m ρ c (Proc.devRef .tc main_v21) = (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 5).trans ((Region0.array (V1 m ρ) c).trans ?_)
  show relu (mix128 (W1 m ρ c (Proc.devRef .tc main_arg0)) (W1 m ρ c (Proc.devRef .tc main_v20)) (W1 m ρ c (Proc.devRef .tc main_arg3))
    (W1 m ρ c (Proc.devRef .tc main_arg4)) (W1 m ρ c (Proc.devRef .tc main_arg5))) = _
  rw [FoldHost.W1_arg0 m ρ c, FoldHost.W1_v20 m ρ c, FoldHost.W1_arg3 m ρ c, FoldHost.W1_arg4 m ρ c, FoldHost.W1_arg5 m ρ c]
  rfl

/-- The second kernel's output array is the second hidden layer. -/
theorem W4_v34 (c : Dev nD) : W4 m ρ c (Proc.devRef .tc main_v34) = (hidden (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) := by
  refine (W4_arr m ρ c 5).trans ((Region1.array (V3 m ρ) c).trans ?_)
  show relu (mix128 (W3 m ρ c (Proc.devRef .tc main_v21)) (W3 m ρ c (Proc.devRef .tc main_v33)) (W3 m ρ c (Proc.devRef .tc main_arg6))
    (W3 m ρ c (Proc.devRef .tc main_arg7)) (W3 m ρ c (Proc.devRef .tc main_arg8))) = _
  rw [FoldHost.W3_v33 m ρ c, FoldHost.W3_v21_keep m ρ c, W2_v21 m ρ c, FoldHost.W3_arg6 m ρ c, FoldHost.W3_arg7 m ρ c, FoldHost.W3_arg8 m ρ c]
  rfl

/-- THE RESULT ARRAY at the end of the program is the network of the argument arrays. -/
theorem W6_v47 (c : Dev nD) : W6 m ρ c (Proc.devRef .tc main_v47)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Region2.array (V5 m ρ) c).trans ?_)
  show mix47 (W5 m ρ c (Proc.devRef .tc main_v34)) (W5 m ρ c (Proc.devRef .tc main_v46)) (W5 m ρ c (Proc.devRef .tc main_arg9))
    (W5 m ρ c (Proc.devRef .tc main_arg10)) (W5 m ρ c (Proc.devRef .tc main_arg11)) = _
  rw [FoldHost.W5_v46 m ρ c, FoldHost.W5_v34_keep m ρ c, W4_v34 m ρ c, FoldHost.W5_arg9 m ρ c, FoldHost.W5_arg10 m ρ c, FoldHost.W5_arg11 m ρ c]
  rfl

end Cert.Sage.Fold

end
-- ==== Proof.RefIsNet.lean ====
/-
  THE REFERENCE COMPUTES THE NETWORK.

  The reference program is a straight line of host operations; its result, as a term of the argument arrays, is the
  network function with nothing rearranged: the shared aggregation chain three times, the dense step and the maximum with
  zero twice, the dense step once more. The two terms are the same operations in the same order, so they agree by
  unfolding the names.
-/
import proofs.«168584_j4123168604186_1_alg».proof.Proof.Gen.ReferenceIdeal.Run
import proofs.«168584_j4123168604186_1_alg».proof.Proof.SageSpec

noncomputable section

namespace Cert.Sage

open Idealize.ShloMosaic Idealize.ShloMosaic.TcCoe Idealize.SL.Sem Cert.ReferenceIdeal Cert.ReferenceIdeal.Gen

variable {F : FTy → Type} [FloatOps F]

set_option maxRecDepth 8192 in
/-- The reference run's result term is the network of the argument arrays. -/
theorem ref_is_net (m : (ℓ : Loc nD τ sig) → Buf (Elt F) ℓ) (c : Dev nD) :
    Cert.ReferenceIdeal.Value.res_main_v64 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v64 net hidden relu mix128 mix47 agg aggWith invDeg wrapIdx
  rfl

end Cert.Sage

end
-- ==== Proof.lean ====
/-
  A THREE-LAYER GRAPH-SAGE NETWORK: THE TILED KERNEL PROGRAM AGAINST THE PLAIN REFERENCE, OVER THE EXTENDED REALS.

  Both programs compute, for 50000 nodes with 128 features and 800000 edges,
      h1 = max(x·W3 + agg(x)·W4 + b5, 0),   h2 = max(h1·W6 + agg(h1)·W7 + b8, 0),   out = h2·W9 + agg(h2)·W10 + b11,
  where agg is the neighbours' mean: rows gathered along the edges, summed into their destinations, scaled by
  1 / max(degree, 1). The aggregation is spelt by the same host operations in both programs and is treated as one
  unopened function. The dense step of each layer is where they differ: the reference takes two whole dots, adds them,
  adds the broadcast bias and takes the maximum with zero; the kernel program does the same on ten blocks of 5000 rows
  in a pipelined kernel, with products into zero accumulators (the narrowing of the operands is the identity on the
  extended reals). Entry (r, q) of a layer depends on the features only through row r, so each block of the kernel's
  output is the corresponding block of the reference's layer, and the ten blocks tile the rows. No law of arithmetic is
  used beyond reading each operation at an entry, so the finiteness of the inputs is never needed for the value.

  The kernel program's run is read segment by segment (three host stretches, three kernels); the reference's run is a
  straight line. Both end with the result buffer at the same function of the arguments.
-/
import proofs.«168584_j4123168604186_1_alg».proof.Defs
import proofs.«168584_j4123168604186_1_alg».proof.Proof.Gen.Kernel
import proofs.«168584_j4123168604186_1_alg».proof.Proof.Gen.Kernel.Skeleton
import proofs.«168584_j4123168604186_1_alg».proof.Proof.Gen.Kernel.Launch
import proofs.«168584_j4123168604186_1_alg».proof.Proof.Gen.Kernel.Points
import proofs.«168584_j4123168604186_1_alg».proof.Proof.Gen.Kernel.Frame
import proofs.«168584_j4123168604186_1_alg».proof.Proof.Gen.KernelIdeal
import proofs.«168584_j4123168604186_1_alg».proof.Proof.Gen.KernelIdeal.Skeleton
import proofs.«168584_j4123168604186_1_alg».proof.Proof.Gen.KernelIdeal.Launch
import proofs.«168584_j4123168604186_1_alg».proof.Proof.Gen.KernelIdeal.Points
import proofs.«168584_j4123168604186_1_alg».proof.Proof.Gen.KernelIdeal.Frame
import proofs.«168584_j4123168604186_1_alg».proof.Proof.Gen.ReferenceIdeal
import proofs.«168584_j4123168604186_1_alg».proof.Proof.Gen.ReferenceIdeal.Run
import proofs.«168584_j4123168604186_1_alg».proof.Proof.Gen.Pre_finite_inputs
import proofs.«168584_j4123168604186_1_alg».proof.Proof.KernelRunAll
import proofs.«168584_j4123168604186_1_alg».proof.Proof.Fold
import proofs.«168584_j4123168604186_1_alg».proof.Proof.RefIsNet
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel program's run over the extended reals ends with the result buffer at the network of the arguments, and
    the arguments as launched: the run with every buffer read, the result buffer followed through the six segments. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v47)
          = Cert.Sage.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun r h c =>
    ⟨(Cert.Sage.KernelRunAll.read_final m ρ h c Cert.KernelIdeal.main_v47 (by decide)).trans (Cert.Sage.Fold.W6_v47 m ρ c),
     (Cert.Sage.KernelRunAll.read_final m ρ h c Cert.KernelIdeal.main_arg0 (by decide)).trans (Cert.KernelIdeal.Gen.W6_main_arg0 m ρ c),
     (Cert.Sage.KernelRunAll.read_final m ρ h c Cert.KernelIdeal.main_arg1 (by decide)).trans (Cert.KernelIdeal.Gen.W6_main_arg1 m ρ c),
     (Cert.Sage.KernelRunAll.read_final m ρ h c Cert.KernelIdeal.main_arg2 (by decide)).trans (Cert.KernelIdeal.Gen.W6_main_arg2 m ρ c),
     (Cert.Sage.KernelRunAll.read_final m ρ h c Cert.KernelIdeal.main_arg3 (by decide)).trans (Cert.KernelIdeal.Gen.W6_main_arg3 m ρ c),
     (Cert.Sage.KernelRunAll.read_final m ρ h c Cert.KernelIdeal.main_arg4 (by decide)).trans (Cert.KernelIdeal.Gen.W6_main_arg4 m ρ c),
     (Cert.Sage.KernelRunAll.read_final m ρ h c Cert.KernelIdeal.main_arg5 (by decide)).trans (Cert.KernelIdeal.Gen.W6_main_arg5 m ρ c),
     (Cert.Sage.KernelRunAll.read_final m ρ h c Cert.KernelIdeal.main_arg6 (by decide)).trans (Cert.KernelIdeal.Gen.W6_main_arg6 m ρ c),
     (Cert.Sage.KernelRunAll.read_final m ρ h c Cert.KernelIdeal.main_arg7 (by decide)).trans (Cert.KernelIdeal.Gen.W6_main_arg7 m ρ c),
     (Cert.Sage.KernelRunAll.read_final m ρ h c Cert.KernelIdeal.main_arg8 (by decide)).trans (Cert.KernelIdeal.Gen.W6_main_arg8 m ρ c),
     (Cert.Sage.KernelRunAll.read_final m ρ h c Cert.KernelIdeal.main_arg9 (by decide)).trans (Cert.KernelIdeal.Gen.W6_main_arg9 m ρ c),
     (Cert.Sage.KernelRunAll.read_final m ρ h c Cert.KernelIdeal.main_arg10 (by decide)).trans (Cert.KernelIdeal.Gen.W6_main_arg10 m ρ c),
     (Cert.Sage.KernelRunAll.read_final m ρ h c Cert.KernelIdeal.main_arg11 (by decide)).trans (Cert.KernelIdeal.Gen.W6_main_arg11 m ρ c)⟩)
    (Cert.Sage.KernelRunAll.run_all m ρ)

/-- Run from memories that agree on the arguments, the two programs end with the same result: the network of the
    arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), kernel_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.Sage.ref_is_net, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
